-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S128x3 .f32) (main_arg9 : FVec F S3 .f32) (main_v33 : IVec S_ 1) : IVec S_ 1 :=
  let main_v34 : FVec F S128x3 .f32 := Host.absf main_arg8
  let main_cst_12 : FVec F S_ .f32 := constant S_ .f32 0x7F800000#32
  let main_v35 : FVec F S128x3 .f32 := broadcastInDim S128x3 ![] bcast_S_S128x3 main_cst_12
  let main_v36 : IVec S128x3 1 := cmpf .olt main_v34 main_v35
  let main_c_13 : IVec S_ 1 := constantI S_ 1 1#1
  let main_v37 : IVec S_ 1 := (fun x v => Host.reduce IntOp.andi x v reducesTo_S128x3_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x3 .f32) (main_arg9 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1000000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x3 .f32) (main_arg9 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x128 : Shape := ⟨2, ![1000000, 128]⟩
abbrev S1x128 : Shape := ⟨2, ![1, 128]⟩
abbrev S5000x128 : Shape := ⟨2, ![5000, 128]⟩
abbrev S1x3 : Shape := ⟨2, ![1, 3]⟩
abbrev S100000x3 : Shape := ⟨2, ![100000, 3]⟩
abbrev S5000x3 : Shape := ⟨2, ![5000, 3]⟩

abbrev nBuf : Space → Nat
  | .hbm => 59
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x3, .f32⟩
  | .hbm, ⟨9, _⟩ => ⟨S3, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x128, .f32⟩
  | .hbm, ⟨33, _⟩ => ⟨S_, .f32⟩
  | .hbm, ⟨34, _⟩ => ⟨S100000x128, .f32⟩
  | .hbm, ⟨35, _⟩ => ⟨S1000000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000x128, .f32⟩
  | .hbm, ⟨50, _⟩ => ⟨S_, .f32⟩
  | .hbm, ⟨51, _⟩ => ⟨S100000x128, .f32⟩
  | .hbm, ⟨52, _⟩ => ⟨S1000000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S1x3, .f32⟩
  | .hbm, ⟨58, _⟩ => ⟨S100000x3, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S128x3, .f32⟩
  | .local _ .vmem, ⟨17, _⟩ => ⟨S1x3, .f32⟩
  | .local _ .vmem, ⟨18, _⟩ => ⟨S5000x3, .f32⟩
  | .local _ .vmem, ⟨19, _⟩ => ⟨S5000x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x3 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S3_S1x3 : S3.ShapeCasts S1x3
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x128_S5000x128_1_0_0_1_n_n_wf : DotDims.WF S5000x128 S128x128 S5000x128 [1] [0] [0] [1] [] []
  dot_S5000x128_S128x3_S5000x3_1_0_0_1_n_n_wf : DotDims.WF S5000x128 S128x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x3.size a ≤ S128x3.size a
  hwx1_5 : ∀ i : grid1.Coords, EltTy.bits .f32 = 32 ∨ (Rect.block (s := S128x3) S128x3.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x3.size a ≤ S1x3.size a
  hwx1_6 : ∀ i : grid1.Coords, EltTy.bits .f32 = 32 ∨ (Rect.block (s := S1x3) S1x3.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x3.size a ≤ S100000x3.size a
  hwx1_7 : ∀ i : grid1.Coords, EltTy.bits .f32 = 32 ∨ (Rect.block (s := S100000x3) S5000x3.size (cc1_transform_7 i) (hinb1_7 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x3.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S1x3.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S5000x3.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128 : Shape := ⟨2, ![1, 128]⟩
abbrev S100000x3 : Shape := ⟨2, ![100000, 3]⟩
abbrev S1x3 : Shape := ⟨2, ![1, 3]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x3, .f32⟩
  | .hbm, ⟨9, _⟩ => ⟨S3, .f32⟩
  | .hbm, ⟨10, _⟩ => ⟨S1x1000000, .i32⟩
  | .hbm, ⟨11, _⟩ => ⟨S1000000, .i32⟩
  | .hbm, ⟨12, _⟩ => ⟨S1x1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x128, .f32⟩
  | .hbm, ⟨23, _⟩ => ⟨S_, .f32⟩
  | .hbm, ⟨24, _⟩ => ⟨S100000x128, .f32⟩
  | .hbm, ⟨25, _⟩ => ⟨S1000000x1, .i32⟩
  | .hbm, ⟨26, _⟩ => ⟨S100000x128, .f32⟩
  | .hbm, ⟨27, _⟩ => ⟨S_, .f32⟩
  | .hbm, ⟨28, _⟩ => ⟨S1000000, .f32⟩
  | .hbm, ⟨29, _⟩ => ⟨S_, .f32⟩
  | .hbm, ⟨30, _⟩ => ⟨S100000, .f32⟩
  | .hbm, ⟨31, _⟩ => ⟨S1000000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x128, .f32⟩
  | .hbm, ⟨57, _⟩ => ⟨S_, .f32⟩
  | .hbm, ⟨58, _⟩ => ⟨S100000x128, .f32⟩
  | .hbm, ⟨59, _⟩ => ⟨S1000000x1, .i32⟩
  | .hbm, ⟨60, _⟩ => ⟨S100000x128, .f32⟩
  | .hbm, ⟨61, _⟩ => ⟨S_, .f32⟩
  | .hbm, ⟨62, _⟩ => ⟨S1000000, .f32⟩
  | .hbm, ⟨63, _⟩ => ⟨S_, .f32⟩
  | .hbm, ⟨64, _⟩ => ⟨S100000, .f32⟩
  | .hbm, ⟨65, _⟩ => ⟨S1000000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x3, .f32⟩
  | .hbm, ⟨83, _⟩ => ⟨S1x3, .f32⟩
  | .hbm, ⟨84, _⟩ => ⟨S100000x3, .f32⟩
  | .hbm, ⟨85, _⟩ => ⟨S100000x3, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []
  dot_S100000x128_S128x3_S100000x3_1_0_0_1_n_n_wf : DotDims.WF S100000x128 S128x3 S100000x3 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf

class Facts : Prop extends Facts₀ where

variable [Facts]
-- ==== Proof.KernelRun.lean ====
/-
  The kernel program's run, with its result array named.

  The program is two grid regions among three stretches of host operations.  Its buffer contents are followed
  through the run as a chain of valuations: the launch memory, the host operations before the first region folded
  over it, the first region's output array replaced by what its grid points write back, the host operations between
  the regions folded over that, and the second region's output array replaced in turn.  The frame property only
  speaks of the argument arrays at the end of that chain; the value property also needs the RESULT array there.
  This module states the same run with a post-condition that reads EVERY buffer that outlives the regions off the
  last valuation of the chain, and then specializes it to the result array beside the ten arguments.
-/
import proofs.«108070_j30081950941187_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, and at the end every buffer that is
    not scoped to a region holds what the last valuation of the chain gives it. -/
theorem run_every_buffer : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

/-- The run with the result array named: it ends at the last valuation's contents of the second region's output
    array, and the ten argument arrays end as launched. -/
theorem run_result : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c main_v39 (by decide),
     (h c main_arg0 (by decide)).trans (W4_main_arg0 m ρ c),
     (h c main_arg1 (by decide)).trans (W4_main_arg1 m ρ c),
     (h c main_arg2 (by decide)).trans (W4_main_arg2 m ρ c),
     (h c main_arg3 (by decide)).trans (W4_main_arg3 m ρ c),
     (h c main_arg4 (by decide)).trans (W4_main_arg4 m ρ c),
     (h c main_arg5 (by decide)).trans (W4_main_arg5 m ρ c),
     (h c main_arg6 (by decide)).trans (W4_main_arg6 m ρ c),
     (h c main_arg7 (by decide)).trans (W4_main_arg7 m ρ c),
     (h c main_arg8 (by decide)).trans (W4_main_arg8 m ρ c),
     (h c main_arg9 (by decide)).trans (W4_main_arg9 m ρ c)⟩)
    (run_every_buffer m ρ)

end Cert.KernelIdeal.Result

end
-- ==== Proof.Node.lean ====
/-
  The mathematics of the two programs, one node at a time, on the extended reals.

  A node's output of a mean-aggregating graph layer depends on two rows only: the mean `a` of its in-neighbours'
  features and its own features `x`.  With weight matrices `Wl`, `Wr` (128 × 128) and a bias `B`, channel `c` of the
  output is  max( Σₖ a k · Wl(k,c) + Σₖ x k · Wr(k,c) + B c , 0 ).  The classifier that follows the second layer sends a
  node's hidden row `h` to  Σₖ h k · Wc(k,c) + Bc c  for each of the three classes.  Both programs compute exactly
  these numbers; they differ only in the ORDER in which the three summands of a layer are added (the bias last, or
  the bias before the node's own term), and addition of extended reals is commutative and associative, so no
  finiteness is needed anywhere.
-/
import Idealize.ShloMosaic.PureOps.Ideal
import Idealize.ShloMosaic.Lib.ValueIdx

noncomputable section

open scoped BigOperators

namespace Cert.Sage

open Idealize.ShloMosaic Idealize.ShloMosaic.ValueIdx

/-- The extended real the all-zero 32-bit word denotes (the threshold of the rectifier; the same word in both
    programs, so it is never evaluated). -/
abbrev zeroE : EReal := Ideal.ofBits .f32 0x00000000#32

/-- Channel `c` of one node's layer output, from the mean row `a` of its in-neighbours and its own row `x`. -/
def sageRow (a x : Fin 128 → EReal) (Wl Wr : (⟨2, ![128, 128]⟩ : Shape).Idx → EReal) (B : Fin 128 → EReal)
    (c : Fin 128) : EReal :=
  max (((∑ k : Fin 128, a k * Wl (ix2 k c)) + (∑ k : Fin 128, x k * Wr (ix2 k c))) + B c) zeroE

/-- Class `c` of one node's logits, from its hidden row `h`. -/
def clsRow (h : Fin 128 → EReal) (Wc : (⟨2, ![128, 3]⟩ : Shape).Idx → EReal) (Bc : Fin 3 → EReal) (c : Fin 3) : EReal :=
  (∑ k : Fin 128, h k * Wc (ix2 k c)) + Bc c

/-- The rectified sum with the bias added BEFORE the node's own term is the same number: addition of extended reals
    is commutative and associative. -/
theorem sageRow_bias_first (a x : Fin 128 → EReal) (Wl Wr : (⟨2, ![128, 128]⟩ : Shape).Idx → EReal) (B : Fin 128 → EReal)
    (c : Fin 128) :
    max (((∑ k : Fin 128, a k * Wl (ix2 k c)) + B c) + (∑ k : Fin 128, x k * Wr (ix2 k c))) zeroE = sageRow a x Wl Wr B c := by
  unfold sageRow
  rw [add_right_comm]

/-- A whole layer over the 100000 nodes: row `r` of the output is `sageRow` of row `r` of the mean array `A` and of
    the feature array `X`. -/
def sageLayer (A X : (⟨2, ![100000, 128]⟩ : Shape).Idx → EReal) (Wl Wr : (⟨2, ![128, 128]⟩ : Shape).Idx → EReal)
    (B : Fin 128 → EReal) : (⟨2, ![100000, 128]⟩ : Shape).Idx → EReal :=
  fun i => sageRow (fun k => A (ix2 (i 0) k)) (fun k => X (ix2 (i 0) k)) Wl Wr B (i 1)

theorem sageLayer_ix2 (A X : (⟨2, ![100000, 128]⟩ : Shape).Idx → EReal) (Wl Wr : (⟨2, ![128, 128]⟩ : Shape).Idx → EReal)
    (B : Fin 128 → EReal) (r : Fin 100000) (c : Fin 128) :
    sageLayer A X Wl Wr B (ix2 r c) = sageRow (fun k => A (ix2 r k)) (fun k => X (ix2 r k)) Wl Wr B c := rfl

/-- The second layer followed by the classifier, over the 100000 nodes. -/
def sageLogits (A X : (⟨2, ![100000, 128]⟩ : Shape).Idx → EReal) (Wl Wr : (⟨2, ![128, 128]⟩ : Shape).Idx → EReal)
    (B : Fin 128 → EReal) (Wc : (⟨2, ![128, 3]⟩ : Shape).Idx → EReal) (Bc : Fin 3 → EReal) :
    (⟨2, ![100000, 3]⟩ : Shape).Idx → EReal :=
  fun i => clsRow (fun k => sageRow (fun k' => A (ix2 (i 0) k')) (fun k' => X (ix2 (i 0) k')) Wl Wr B k) Wc Bc (i 1)

theorem sageLogits_ix2 (A X : (⟨2, ![100000, 128]⟩ : Shape).Idx → EReal) (Wl Wr : (⟨2, ![128, 128]⟩ : Shape).Idx → EReal)
    (B : Fin 128 → EReal) (Wc : (⟨2, ![128, 3]⟩ : Shape).Idx → EReal) (Bc : Fin 3 → EReal) (r : Fin 100000) (c : Fin 3) :
    sageLogits A X Wl Wr B Wc Bc (ix2 r c)
      = clsRow (fun k => sageRow (fun k' => A (ix2 r k')) (fun k' => X (ix2 r k')) Wl Wr B k) Wc Bc c := rfl

/-- The logits are the classifier applied to the second layer's rows. -/
theorem sageLogits_eq_cls_layer (A X : (⟨2, ![100000, 128]⟩ : Shape).Idx → EReal) (Wl Wr : (⟨2, ![128, 128]⟩ : Shape).Idx → EReal)
    (B : Fin 128 → EReal) (Wc : (⟨2, ![128, 3]⟩ : Shape).Idx → EReal) (Bc : Fin 3 → EReal) (r : Fin 100000) (c : Fin 3) :
    sageLogits A X Wl Wr B Wc Bc (ix2 r c) = clsRow (fun k => sageLayer A X Wl Wr B (ix2 r k)) Wc Bc c := rfl

end Cert.Sage

end
-- ==== Proof.Payload.lean ====
/-
  What one grid point of each region computes, read at an entry of its output block.

  A block is 5000 consecutive nodes.  Region 0 stores, at node `p` of the block and channel `q`,
  the rectified sum of two matrix products and a bias row: `sageRow` of row `p` of the two input blocks.
  Region 1 computes the same hidden row and multiplies it by the 128 × 3 classifier matrix: `clsRow` of that row.
  A change of float format is the identity on the extended reals, a matrix product into the zero accumulator is the
  plain sum over the contracted axis, and a [1, n] row broadcast down the block reads its one row.
-/
import proofs.«108070_j30081950941187_2_alg».proof.Proof.Gen.KernelIdeal.Skeleton
import proofs.«108070_j30081950941187_2_alg».proof.Proof.Node
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.TcCoe Idealize.ShloMosaic.ValueIdx Cert.Sage

/-! ## The [5000,128] · [128,128] product -/

theorem lhsH_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsH_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsH_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsH_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the product of a [5000,128] block with a [128,128] matrix, accumulated from zero: the sum over the
    contracted axis of row `p` against column `q`. -/
theorem mmH_apply {φ₁ φ₂ : FTy} (a : FVec Ideal S5000x128 φ₁) (w : FVec Ideal S128x128 φ₂) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsH_0 _ _
    | ⟨1, _⟩ => exact (lhsH_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsH_0 _ _).trans hk
    | ⟨1, _⟩ => exact rhsH_1 _ _)
  rw [el, er]

/-! ## The [5000,128] · [128,3] product -/

theorem lhsC_0 (i : S5000x3.Idx) (q : dot_S5000x128_S128x3_S5000x3_1_0_0_1_n_n.contr.Idx) :
    (dot_S5000x128_S128x3_S5000x3_1_0_0_1_n_n.lhsIdx i q 0).val = (i 0).val := by
  unfold DotDims.lhsIdx
  rw [dif_neg (show ¬(0 : Fin S5000x128.rank) ∈ dot_S5000x128_S128x3_S5000x3_1_0_0_1_n_n.lhsBatch by decide), dif_pos (show (0 : Fin S5000x128.rank) ∈ dot_S5000x128_S128x3_S5000x3_1_0_0_1_n_n.lhsNonContracting by decide)]
  rfl
theorem lhsC_1 (i : S5000x3.Idx) (q : dot_S5000x128_S128x3_S5000x3_1_0_0_1_n_n.contr.Idx) :
    (dot_S5000x128_S128x3_S5000x3_1_0_0_1_n_n.lhsIdx i q 1).val = (q ⟨0, by decide⟩).val :=
  dot_S5000x128_S128x3_S5000x3_1_0_0_1_n_n.lhsIdx_val_of_single rfl i q
theorem rhsC_0 (i : S5000x3.Idx) (q : dot_S5000x128_S128x3_S5000x3_1_0_0_1_n_n.contr.Idx) :
    (dot_S5000x128_S128x3_S5000x3_1_0_0_1_n_n.rhsIdx i q 0).val = (q ⟨0, by decide⟩).val :=
  dot_S5000x128_S128x3_S5000x3_1_0_0_1_n_n.rhsIdx_val_of_single rfl i q
theorem rhsC_1 (i : S5000x3.Idx) (q : dot_S5000x128_S128x3_S5000x3_1_0_0_1_n_n.contr.Idx) :
    (dot_S5000x128_S128x3_S5000x3_1_0_0_1_n_n.rhsIdx i q 1).val = (i 1).val := by
  unfold DotDims.rhsIdx
  rw [dif_neg (show ¬(1 : Fin S128x3.rank) ∈ dot_S5000x128_S128x3_S5000x3_1_0_0_1_n_n.rhsBatch by decide), dif_pos (show (1 : Fin S128x3.rank) ∈ dot_S5000x128_S128x3_S5000x3_1_0_0_1_n_n.rhsNonContracting by decide)]
  rfl

/-- Entry (p, q) of the product of a [5000,128] block with the [128,3] classifier matrix, accumulated from zero. -/
theorem mmC_apply {φ₁ φ₂ : FTy} (a : FVec Ideal S5000x128 φ₁) (w : FVec Ideal S128x3 φ₂) (p : Fin 5000) (q : Fin 3) :
    matmul dot_S5000x128_S128x3_S5000x3_1_0_0_1_n_n none a w (constant S5000x3 .f32 0x00000000#32) (ix2 p q)
      = ∑ k : Fin 128, a (ix2 p k) * w (ix2 k q) := by
  simp only [matmul]
  rw [Ideal.matmul_constant_zero_apply, ← Equiv.sum_comp (contrEquiv1 dot_S5000x128_S128x3_S5000x3_1_0_0_1_n_n 128 rfl rfl).symm]
  refine Finset.sum_congr rfl fun k _ => ?_
  have hk := contrEquiv1_symm_val dot_S5000x128_S128x3_S5000x3_1_0_0_1_n_n 128 rfl rfl k
  have el : dot_S5000x128_S128x3_S5000x3_1_0_0_1_n_n.lhsIdx (ix2 p q) ((contrEquiv1 dot_S5000x128_S128x3_S5000x3_1_0_0_1_n_n 128 rfl rfl).symm k) = ix2 p k := funext fun a => Fin.ext (by
    match a with
    | ⟨0, _⟩ => exact lhsC_0 _ _
    | ⟨1, _⟩ => exact (lhsC_1 _ _).trans hk)
  have er : dot_S5000x128_S128x3_S5000x3_1_0_0_1_n_n.rhsIdx (ix2 p q) ((contrEquiv1 dot_S5000x128_S128x3_S5000x3_1_0_0_1_n_n 128 rfl rfl).symm k) = ix2 k q := funext fun a => Fin.ext (by
    match a with
    | ⟨0, _⟩ => exact (rhsC_0 _ _).trans hk
    | ⟨1, _⟩ => exact rhsC_1 _ _)
  rw [el, er]

/-! ## The bias rows broadcast down a block -/

/-- A [1,128] row broadcast to [5000,128] reads, at (p, q), the row's entry q. -/
theorem rowH_apply (b : FVec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => by
    match a with
    | ⟨0, _⟩ => rfl
    | ⟨1, _⟩ => rfl)

/-- A [1,3] row broadcast to [5000,3] reads, at (p, q), the row's entry q. -/
theorem rowC_apply (b : FVec Ideal S1x3 .f32) (p : Fin 5000) (q : Fin 3) :
    broadcastTo S5000x3 b broadcasts_S1x3_S5000x3 (ix2 p q) = b (ix2 (0 : Fin 1) q) :=
  broadcastTo_apply b broadcasts_S1x3_S5000x3 (ix2 p q) (ix2 (0 : Fin 1) q) (fun a => by
    match a with
    | ⟨0, _⟩ => rfl
    | ⟨1, _⟩ => rfl)

/-! ## The two payloads at an entry -/

/-- Region 0's stored value at node `p` of the block, channel `q`: the layer's row function of row `p` of the mean
    block `x0` and of the feature block `x1`, with the weights `wl`, `wr` and the bias row `b`. -/
theorem hidden_apply (x0 x1 : Vec Ideal S5000x128 .f32) (wl wr : Vec Ideal S128x128 .f32) (b : Vec Ideal S1x128 .f32)
    (p : Fin 5000) (q : Fin 128) :
    k0_pay1 x0 x1 wl wr b (ix2 p q)
      = sageRow (fun k => x0 (ix2 p k)) (fun k => x1 (ix2 p k)) wl wr (fun k => b (ix2 (0 : Fin 1) k)) q := by
  unfold k0_pay1
  simp only [shapeCast_self]
  show max ((matmul (F := Ideal) dot_S5000x128_S128x128_S5000x128_1_0_0_1_n_n none (truncf (F := Ideal) .bf16 x0 bitsLt_bf16_f32) (truncf (F := Ideal) .bf16 wl bitsLt_bf16_f32) (constant (F := Ideal) S5000x128 .f32 0x00000000#32) (ix2 p q)
        + matmul (F := Ideal) dot_S5000x128_S128x128_S5000x128_1_0_0_1_n_n none (truncf (F := Ideal) .bf16 x1 bitsLt_bf16_f32) (truncf (F := Ideal) .bf16 wr bitsLt_bf16_f32) (constant (F := Ideal) S5000x128 .f32 0x00000000#32) (ix2 p q))
        + broadcastTo S5000x128 b broadcasts_S1x128_S5000x128 (ix2 p q)) zeroE = _
  rw [mmH_apply, mmH_apply, rowH_apply]
  rfl

/-- Region 1's stored value at node `p` of the block, class `q`: the classifier's row function of the node's hidden
    row, which is the layer's row function of row `p` of the mean block `x0` and of the hidden-feature block `x1`. -/
theorem logits_apply (x0 x1 : Vec Ideal S5000x128 .f32) (wl wr : Vec Ideal S128x128 .f32) (b : Vec Ideal S1x128 .f32)
    (wc : Vec Ideal S128x3 .f32) (bc : Vec Ideal S1x3 .f32) (p : Fin 5000) (q : Fin 3) :
    k1_pay1 x0 x1 wl wr b wc bc (ix2 p q)
      = clsRow (fun k => sageRow (fun k' => x0 (ix2 p k')) (fun k' => x1 (ix2 p k')) wl wr (fun k' => b (ix2 (0 : Fin 1) k')) k)
          wc (fun k => bc (ix2 (0 : Fin 1) k)) q := by
  have hsplit : k1_pay1 x0 x1 wl wr b wc bc
      = addf (matmul (F := Ideal) dot_S5000x128_S128x3_S5000x3_1_0_0_1_n_n none
          (truncf (F := Ideal) .bf16 (k0_pay1 x0 x1 wl wr b) bitsLt_bf16_f32) (truncf (F := Ideal) .bf16 wc bitsLt_bf16_f32)
          (constant (F := Ideal) S5000x3 .f32 0x00000000#32))
        (broadcastTo S5000x3 bc broadcasts_S1x3_S5000x3) := by
    unfold k1_pay1 k0_pay1
    simp only [shapeCast_self]
  rw [hsplit]
  show matmul (F := Ideal) dot_S5000x128_S128x3_S5000x3_1_0_0_1_n_n none
        (truncf (F := Ideal) .bf16 (k0_pay1 x0 x1 wl wr b) bitsLt_bf16_f32) (truncf (F := Ideal) .bf16 wc bitsLt_bf16_f32)
        (constant (F := Ideal) S5000x3 .f32 0x00000000#32) (ix2 p q)
      + broadcastTo S5000x3 bc broadcasts_S1x3_S5000x3 (ix2 p q) = _
  rw [mmC_apply, rowC_apply]
  show (∑ k : Fin 128, k0_pay1 x0 x1 wl wr b (ix2 p k) * wc (ix2 k q)) + bc (ix2 (0 : Fin 1) q)
      = (∑ k : Fin 128, sageRow (fun k' => x0 (ix2 p k')) (fun k' => x1 (ix2 p k')) wl wr (fun k' => b (ix2 (0 : Fin 1) k')) k * wc (ix2 k q))
        + bc (ix2 (0 : Fin 1) q)
  simp only [hidden_apply]

end Cert.KernelIdeal.Body

end
-- ==== Proof.Region0.lean ====
/-
  The first region's output array, as one function of the arrays the region finds on entry.

  The grid has 20 points; point `t` works on nodes 5000·t … 5000·t + 4999.  It reads the same block of rows of the mean
  array and of the feature array, the two weight matrices and the bias row whole, and writes back that block of rows of
  the output.  A node's output row depends only on the node's own row of the two row-blocked inputs, so what point `t`
  writes back is block `t` of ONE whole-array function, `sageLayer`; the 20 blocks cover all 100000 rows; hence the
  array after the region is `sageLayer` of the entry arrays.  Stated for ANY entry contents `V`.
-/
import proofs.«108070_j30081950941187_2_alg».proof.Proof.Gen.KernelIdeal.Frame
import proofs.«108070_j30081950941187_2_alg».proof.Proof.Payload

set_option maxRecDepth 16384

noncomputable section

open scoped BigOperators

namespace Cert.KernelIdeal.Region0

open Cert.KernelIdeal Cert.KernelIdeal.Gen Cert.KernelIdeal.Body Cert.Sage
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The index maps over the grid: the two row-blocked inputs move with the output, block column 0; the weights and
    the bias row stay at block (0, 0); the output's block row is the point's number, below 20. -/
theorem index_maps : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every block row 0 … 19 is some point's. -/
theorem block_rows_onto : ∀ q0 : Fin 20, ∃ t : Fin cfg0.N, win0_5.index t = ![q0.val, 0] :=
  (by decide +kernel : ∀ q0 : Fin 20, ∃ t : Fin grid0.N, win0_5.index t = ![q0.val, 0])

/-- One grid point, over plain variables: if the two row blocks `x0`, `x1` are rows `5000·n …` of the arrays `A`, `X`
    (through the embedding `e` of block entries into array entries), then the stored value at a block entry is the
    layer function of `A`, `X` at the embedded entry. -/
theorem point_value (x0 x1 : Vec Ideal S5000x128 .f32) (wl wr : Vec Ideal S128x128 .f32) (b : Vec Ideal S1x128 .f32)
    (A X : S100000x128.Idx → EReal)
    (e : S5000x128.Idx → S100000x128.Idx) (n : ℕ)
    (he0 : ∀ y, ((e y) 0).val = n * 5000 + (y 0).val) (he1 : ∀ y, ((e y) 1).val = (y 1).val)
    (h0 : ∀ y, x0 y = A (e y)) (h1 : ∀ y, x1 y = X (e y)) (j : S5000x128.Idx) :
    k0_pay1 x0 x1 wl wr b j = sageLayer A X wl wr (fun k => b (ix2 (0 : Fin 1) k)) (e j) := by
  obtain ⟨p, q, rfl⟩ : ∃ (p : Fin 5000) (q : Fin 128), j = ix2 p q := ⟨j 0, j 1, eq_ix2 j⟩
  rw [hidden_apply]
  have hrow : ∀ k : Fin 128, e (ix2 p k) = ix2 ((e (ix2 p q)) 0) k := fun k => funext fun a => Fin.ext (by
    match a with
    | ⟨0, _⟩ => show ((e (ix2 p k)) 0).val = ((e (ix2 p q)) 0).val; rw [he0, he0]
    | ⟨1, _⟩ => show ((e (ix2 p k)) 1).val = k.val; rw [he1])
  have hcol : (e (ix2 p q)) 1 = q := Fin.ext (he1 _)
  have ha : (fun k : Fin 128 => x0 (ix2 p k)) = fun k => A (ix2 ((e (ix2 p q)) 0) k) :=
    funext fun k => (h0 _).trans (congrArg A (hrow k))
  have hx : (fun k : Fin 128 => x1 (ix2 p k)) = fun k => X (ix2 ((e (ix2 p q)) 0) k) :=
    funext fun k => (h1 _).trans (congrArg X (hrow k))
  show sageRow _ _ wl wr _ q = sageRow _ _ wl wr _ ((e (ix2 p q)) 1)
  rw [hcol, ha, hx]

/-- WHAT POINT `t` WRITES BACK is block `t` of the layer function of the entry arrays. -/
theorem written_back (c : Dev nD) (t : Fin cfg0.N) :
    (dat0 V c).flushed 5 t = ((cfg0.win 5).blk t).view.read (Elt Ideal)
      (sageLayer (V c main_v22) (V c main_arg0) (V c main_arg2) (V c main_arg4) (fun k => V c main_v23 (ix2 (0 : Fin 1) k))) := by
  show (cfg0.win 5).cut (grid0.coords t) ((dat0 V c).after 5 t) = _
  rw [after0_5]
  unfold out0_5
  rw [View.canon_unit_zero origin2]
  simp only [View.ld_unit_zero (S := S5000x128) origin2, View.ld_unit_zero (S := S128x128) origin2, View.ld_unit_zero (S := S1x128) origin2]
  obtain ⟨e00, e01, e10, e11, e20, e21, e30, e31, e40, e41, e51, e5⟩ := index_maps t
  have hwl : iblk0 V c 2 t = V c main_arg2 := funext fun y => by
    show V c main_arg2 (((cfg0.win 2).blk t).view.emb y) = V c main_arg2 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have hwr : iblk0 V c 4 t = V c main_arg4 := funext fun y => by
    show V c main_arg4 (((cfg0.win 4).blk t).view.emb y) = V c main_arg4 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  have hb : iblk0 V c 3 t = V c main_v23 := funext fun y => by
    show V c main_v23 (((cfg0.win 3).blk t).view.emb y) = V c main_v23 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  rw [hwl, hwr, hb]
  funext j
  show k0_pay1 (iblk0 V c 0 t) (iblk0 V c 1 t) (V c main_arg2) (V c main_arg4) (V c main_v23) j
      = sageLayer (V c main_v22) (V c main_arg0) (V c main_arg2) (V c main_arg4) (fun k => V c main_v23 (ix2 (0 : Fin 1) k))
          (((cfg0.win 5).blk t).view.emb j)
  refine point_value (iblk0 V c 0 t) (iblk0 V c 1 t) (V c main_arg2) (V c main_arg4) (V c main_v23) (V c main_v22) (V c main_arg0)
    (((cfg0.win 5).blk t).view.emb) (win0_5.index t (0 : Fin 2)) ?_ ?_ ?_ ?_ j
  · intro y
    show win0_5.index t (0 : Fin 2) * 5000 + 1 * (y 0).val = _
    omega
  · intro y
    show win0_5.index t (1 : Fin 2) * 128 + 1 * (y 1).val = _
    omega
  · intro y
    show V c main_v22 (((cfg0.win 0).blk t).view.emb y) = V c main_v22 (((cfg0.win 5).blk t).view.emb y)
    refine congrArg _ (funext fun a => Fin.ext ?_)
    match a with
    | ⟨0, _⟩ => show win0_0.index t (0 : Fin 2) * 5000 + 1 * (y 0).val = win0_5.index t (0 : Fin 2) * 5000 + 1 * (y 0).val; omega
    | ⟨1, _⟩ => show win0_0.index t (1 : Fin 2) * 128 + 1 * (y 1).val = win0_5.index t (1 : Fin 2) * 128 + 1 * (y 1).val; omega
  · intro y
    show V c main_arg0 (((cfg0.win 1).blk t).view.emb y) = V c main_arg0 (((cfg0.win 5).blk t).view.emb y)
    refine congrArg _ (funext fun a => Fin.ext ?_)
    match a with
    | ⟨0, _⟩ => show win0_1.index t (0 : Fin 2) * 5000 + 1 * (y 0).val = win0_5.index t (0 : Fin 2) * 5000 + 1 * (y 0).val; omega
    | ⟨1, _⟩ => show win0_1.index t (1 : Fin 2) * 128 + 1 * (y 1).val = win0_5.index t (1 : Fin 2) * 128 + 1 * (y 1).val; omega

/-- An entry of the output array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Every entry of the output array is in the block of the point numbered by its row divided by 5000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := block_rows_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY after the region: the layer function of the entry arrays. -/
theorem array_after (c : Dev nD) :
    (dat0 V c).arrAt 5 cfg0.N
      = sageLayer (V c main_v22) (V c main_arg0) (V c main_arg2) (V c main_arg4) (fun k => V c main_v23 (ix2 (0 : Fin 1) k)) :=
  (dat0 V c).arrAt_eq_of_cover 5 _ (fun t _ => written_back V c t) covered

end Cert.KernelIdeal.Region0

end
-- ==== Proof.Region1.lean ====
/-
  The second region's output array, as one function of the arrays the region finds on entry.

  As in the first region, point `t` of the 20 works on nodes 5000·t … 5000·t + 4999: it reads that block of rows of the
  second mean array and of the hidden-feature array, the two weight matrices, the bias row, the classifier matrix and its
  bias row whole, and writes back that block of rows of the logits.  A node's logits depend only on its own row of the
  two row-blocked inputs, so what point `t` writes back is block `t` of ONE whole-array function, `sageLogits`; the 20
  blocks cover all 100000 rows; hence the array after the region is `sageLogits` of the entry arrays.  Stated for ANY entry
  contents `V`.
-/
import proofs.«108070_j30081950941187_2_alg».proof.Proof.Gen.KernelIdeal.Frame
import proofs.«108070_j30081950941187_2_alg».proof.Proof.Payload

set_option maxRecDepth 16384

noncomputable section

open scoped BigOperators

namespace Cert.KernelIdeal.Region1

open Cert.KernelIdeal Cert.KernelIdeal.Gen Cert.KernelIdeal.Body Cert.Sage
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The index maps over the grid: the two row-blocked inputs move with the output, block column 0; the weights, the
    classifier and the bias rows stay at block (0, 0); the output's block row is the point's number, below 20. -/
theorem index_maps : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 2) = 0 ∧ win1_7.index t (0 : Fin 2) ≤ 19 :=
  (by decide +kernel : ∀ t : Fin grid1.N, _)

/-- Every block row 0 … 19 is some point's. -/
theorem block_rows_onto : ∀ q0 : Fin 20, ∃ t : Fin cfg1.N, win1_7.index t = ![q0.val, 0] :=
  (by decide +kernel : ∀ q0 : Fin 20, ∃ t : Fin grid1.N, win1_7.index t = ![q0.val, 0])

/-- One grid point, over plain variables: if the two row blocks `x0`, `x1` are rows `5000·n …` of the arrays `A`, `X`
    (through the embeddings `e` of input-block entries and `e'` of output-block entries into array entries), then the
    stored value at an output-block entry is the logits function of `A`, `X` at the embedded entry. -/
theorem point_value (x0 x1 : Vec Ideal S5000x128 .f32) (wl wr : Vec Ideal S128x128 .f32) (b : Vec Ideal S1x128 .f32)
    (wc : Vec Ideal S128x3 .f32) (bc : Vec Ideal S1x3 .f32)
    (A X : S100000x128.Idx → EReal)
    (e : S5000x128.Idx → S100000x128.Idx) (e' : S5000x3.Idx → S100000x3.Idx) (n : ℕ)
    (he0 : ∀ y, ((e y) 0).val = n * 5000 + (y 0).val) (he1 : ∀ y, ((e y) 1).val = (y 1).val)
    (he0' : ∀ y, ((e' y) 0).val = n * 5000 + (y 0).val) (he1' : ∀ y, ((e' y) 1).val = (y 1).val)
    (h0 : ∀ y, x0 y = A (e y)) (h1 : ∀ y, x1 y = X (e y)) (j : S5000x3.Idx) :
    k1_pay1 x0 x1 wl wr b wc bc j
      = sageLogits A X wl wr (fun k => b (ix2 (0 : Fin 1) k)) wc (fun k => bc (ix2 (0 : Fin 1) k)) (e' j) := by
  obtain ⟨p, q, rfl⟩ : ∃ (p : Fin 5000) (q : Fin 3), j = ix2 p q := ⟨j 0, j 1, eq_ix2 j⟩
  rw [logits_apply]
  have hrow : ∀ k : Fin 128, e (ix2 p k) = ix2 ((e' (ix2 p q)) 0) k := fun k => funext fun a => Fin.ext (by
    match a with
    | ⟨0, _⟩ => show ((e (ix2 p k)) 0).val = ((e' (ix2 p q)) 0).val; rw [he0, he0']
    | ⟨1, _⟩ => show ((e (ix2 p k)) 1).val = k.val; rw [he1])
  have hcol : (e' (ix2 p q)) 1 = q := Fin.ext (he1' _)
  have ha : (fun k : Fin 128 => x0 (ix2 p k)) = fun k => A (ix2 ((e' (ix2 p q)) 0) k) :=
    funext fun k => (h0 _).trans (congrArg A (hrow k))
  have hx : (fun k : Fin 128 => x1 (ix2 p k)) = fun k => X (ix2 ((e' (ix2 p q)) 0) k) :=
    funext fun k => (h1 _).trans (congrArg X (hrow k))
  show clsRow (fun k => sageRow _ _ wl wr _ k) wc _ q = clsRow (fun k => sageRow _ _ wl wr _ k) wc _ ((e' (ix2 p q)) 1)
  rw [hcol, ha, hx]

/-- WHAT POINT `t` WRITES BACK is block `t` of the logits function of the entry arrays. -/
theorem written_back (c : Dev nD) (t : Fin cfg1.N) :
    (dat1 V c).flushed 7 t = ((cfg1.win 7).blk t).view.read (Elt Ideal)
      (sageLogits (V c main_v36) (V c main_v24) (V c main_arg5) (V c main_arg7) (fun k => V c main_v37 (ix2 (0 : Fin 1) k))
        (V c main_arg8) (fun k => V c main_v38 (ix2 (0 : Fin 1) k))) := by
  show (cfg1.win 7).cut (grid1.coords t) ((dat1 V c).after 7 t) = _
  rw [after1_7]
  unfold out1_7
  rw [View.canon_unit_zero origin2]
  simp only [View.ld_unit_zero (S := S5000x128) origin2, View.ld_unit_zero (S := S128x128) origin2, View.ld_unit_zero (S := S1x128) origin2,
    View.ld_unit_zero (S := S128x3) origin2, View.ld_unit_zero (S := S1x3) origin2]
  obtain ⟨e00, e01, e10, e11, e20, e21, e30, e31, e40, e41, e50, e51, e60, e61, e71, e7⟩ := index_maps t
  have hwl : iblk1 V c 2 t = V c main_arg5 := funext fun y => by
    show V c main_arg5 (((cfg1.win 2).blk t).view.emb y) = V c main_arg5 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have hwr : iblk1 V c 4 t = V c main_arg7 := funext fun y => by
    show V c main_arg7 (((cfg1.win 4).blk t).view.emb y) = V c main_arg7 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have hb : iblk1 V c 3 t = V c main_v37 := funext fun y => by
    show V c main_v37 (((cfg1.win 3).blk t).view.emb y) = V c main_v37 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  have hwc : iblk1 V c 5 t = V c main_arg8 := funext fun y => by
    show V c main_arg8 (((cfg1.win 5).blk t).view.emb y) = V c main_arg8 y
    refine congrArg _ (funext fun a => Fin.ext ?_)
    match a with
    | ⟨0, _⟩ => show win1_5.index t (0 : Fin 2) * 128 + 1 * (y 0).val = (y 0).val; omega
    | ⟨1, _⟩ => show win1_5.index t (1 : Fin 2) * 3 + 1 * (y 1).val = (y 1).val; omega
  have hbc : iblk1 V c 6 t = V c main_v38 := funext fun y => by
    show V c main_v38 (((cfg1.win 6).blk t).view.emb y) = V c main_v38 y
    refine congrArg _ (funext fun a => Fin.ext ?_)
    match a with
    | ⟨0, _⟩ => show win1_6.index t (0 : Fin 2) * 1 + 1 * (y 0).val = (y 0).val; omega
    | ⟨1, _⟩ => show win1_6.index t (1 : Fin 2) * 3 + 1 * (y 1).val = (y 1).val; omega
  rw [hwl, hwr, hb, hwc, hbc]
  funext j
  show k1_pay1 (iblk1 V c 0 t) (iblk1 V c 1 t) (V c main_arg5) (V c main_arg7) (V c main_v37) (V c main_arg8) (V c main_v38) j
      = sageLogits (V c main_v36) (V c main_v24) (V c main_arg5) (V c main_arg7) (fun k => V c main_v37 (ix2 (0 : Fin 1) k))
          (V c main_arg8) (fun k => V c main_v38 (ix2 (0 : Fin 1) k)) (((cfg1.win 7).blk t).view.emb j)
  refine point_value (iblk1 V c 0 t) (iblk1 V c 1 t) (V c main_arg5) (V c main_arg7) (V c main_v37) (V c main_arg8) (V c main_v38)
    (V c main_v36) (V c main_v24)
    (((cfg1.win 0).blk t).view.emb) (((cfg1.win 7).blk t).view.emb) (win1_7.index t (0 : Fin 2)) ?_ ?_ ?_ ?_ ?_ ?_ j
  · intro y
    show win1_0.index t (0 : Fin 2) * 5000 + 1 * (y 0).val = _
    omega
  · intro y
    show win1_0.index t (1 : Fin 2) * 128 + 1 * (y 1).val = _
    omega
  · intro y
    show win1_7.index t (0 : Fin 2) * 5000 + 1 * (y 0).val = _
    omega
  · intro y
    show win1_7.index t (1 : Fin 2) * 3 + 1 * (y 1).val = _
    omega
  · intro y
    rfl
  · intro y
    show V c main_v24 (((cfg1.win 1).blk t).view.emb y) = V c main_v24 (((cfg1.win 0).blk t).view.emb y)
    refine congrArg _ (funext fun a => Fin.ext ?_)
    match a with
    | ⟨0, _⟩ => show win1_1.index t (0 : Fin 2) * 5000 + 1 * (y 0).val = win1_0.index t (0 : Fin 2) * 5000 + 1 * (y 0).val; omega
    | ⟨1, _⟩ => show win1_1.index t (1 : Fin 2) * 128 + 1 * (y 1).val = win1_0.index t (1 : Fin 2) * 128 + 1 * (y 1).val; omega

/-- An entry of the output array is in point `t`'s block iff each coordinate is in the block's range on its axis. -/
theorem mem_block (t : Fin cfg1.N) (i : S100000x3.Idx) :
    i ∈ ((cfg1.win 7).blk t).view.set ↔ ∀ a : Fin 2, win1_7.index t a * S5000x3.size a ≤ (i a).val ∧ (i a).val < win1_7.index t a * S5000x3.size a + S5000x3.size a := by
  show i ∈ ((View.whole main_v39).slice (win1_7.rect t)).set ↔ _
  rw [View.set_slice_whole, Rect.mem_set_unit]
  exact Iff.rfl

/-- Every entry of the output array is in the block of the point numbered by its row divided by 5000. -/
theorem covered (i : S100000x3.Idx) :
    ∃ t : Fin cfg1.N, (cfg1.win 7).flush t = true ∧ i ∈ ((cfg1.win 7).blk t).view.set := by
  have hi0 : (i 0).val < 100000 := (i 0).isLt
  have hi1 : (i 1).val < 3 := (i 1).isLt
  obtain ⟨t, ht⟩ := block_rows_onto ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_block]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 3 ≤ (i 1).val ∧ (i 1).val < win1_7.index t (1 : Fin 2) * 3 + 3; omega

/-- THE ARRAY after the region: the logits function of the entry arrays. -/
theorem array_after (c : Dev nD) :
    (dat1 V c).arrAt 7 cfg1.N
      = sageLogits (V c main_v36) (V c main_v24) (V c main_arg5) (V c main_arg7) (fun k => V c main_v37 (ix2 (0 : Fin 1) k))
          (V c main_arg8) (fun k => V c main_v38 (ix2 (0 : Fin 1) k)) :=
  (dat1 V c).arrAt_eq_of_cover 7 _ (fun t _ => written_back V c t) covered

end Cert.KernelIdeal.Region1

end
-- ==== Proof.Glue.lean ====
/-
  The kernel program's host operations, as pure functions, and what each region finds on entry.

  From the edge list the host takes the source column and the destination column, counts each node's in-edges (a
  scatter-add of ones, clamped below at one) and, for a feature array `X`, forms the MEAN OF IN-NEIGHBOURS: it gathers the
  source rows of `X` (an index below zero wrapped once by the node count), scatter-adds them at the destination rows, and
  divides each row by the node's clamped count.  The first region is entered with that mean of the features, the
  features, the first layer's weights and its bias as a row; the second with that mean of the first region's output,
  that output, the second layer's weights, its bias as a row, the classifier and its bias as a row.  The gather and the
  scatter-add are never opened: both programs apply the same two functions to the same operands.
-/
import proofs.«108070_j30081950941187_2_alg».proof.Proof.Gen.KernelIdeal.Frame
import Idealize.ShloMosaic.Lib.StableHlo.Run
import Idealize.ShloMosaic.PureOps.Ideal

set_option maxRecDepth 16384

noncomputable section

namespace Cert.KernelIdeal.Glue

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

/-! ## The host operations as functions -/

/-- The source column of the edge list. -/
def srcOf (ei : (⟨S2x1000000, .i32⟩ : BufTy).Contents (Elt Ideal)) : (⟨S1000000, .i32⟩ : BufTy).Contents (Elt Ideal) :=
  shapeCast S1000000 (extractStridedSlice S1x1000000 ![0, 0] ei slices_S2x1000000_S1x1000000_0_0) shapeCasts_S1x1000000_S1000000

/-- The destination column of the edge list. -/
def dstOf (ei : (⟨S2x1000000, .i32⟩ : BufTy).Contents (Elt Ideal)) : (⟨S1000000, .i32⟩ : BufTy).Contents (Elt Ideal) :=
  shapeCast S1000000 (extractStridedSlice S1x1000000 ![1, 0] ei slices_S2x1000000_S1x1000000_1_0) shapeCasts_S1x1000000_S1000000

/-- Each node's number of in-edges, clamped below at one, as a column. -/
def cntOf (dst : (⟨S1000000, .i32⟩ : BufTy).Contents (Elt Ideal)) : (⟨S100000x1, .f32⟩ : BufTy).Contents (Elt Ideal) :=
  shapeCast S100000x1
    (maximumf (F := Ideal)
      (Host.scatterAdd (F := Ideal) scatter_S100000_S1000000x1_S1000000_n_0_0_1
        (broadcastInDim S100000 ![] bcast_S_S100000 (constant (F := Ideal) S_ .f32 0x00000000#32))
        (broadcastInDim S1000000x1 ![0] bcast_S1000000_S1000000x1_0 dst)
        (broadcastInDim S1000000 ![] bcast_S_S1000000 (constant (F := Ideal) S_ .f32 0x3F800000#32)))
      (broadcastInDim S100000 ![] bcast_S_S100000 (constant (F := Ideal) S_ .f32 0x3F800000#32)))
    shapeCasts_S100000_S100000x1

/-- The mean of in-neighbours of a feature array `X`, from the two columns and the clamped counts. -/
def meanWith (src dst : (⟨S1000000, .i32⟩ : BufTy).Contents (Elt Ideal)) (cnt : (⟨S100000x1, .f32⟩ : BufTy).Contents (Elt Ideal))
    (X : (⟨S100000x128, .f32⟩ : BufTy).Contents (Elt Ideal)) : (⟨S100000x128, .f32⟩ : BufTy).Contents (Elt Ideal) :=
  Host.divf (F := Ideal)
    (Host.scatterAdd (F := Ideal) scatter_S100000x128_S1000000x1_S1000000x128_1_0_0_1
      (broadcastInDim S100000x128 ![] bcast_S_S100000x128 (constant (F := Ideal) S_ .f32 0x00000000#32))
      (broadcastInDim S1000000x1 ![0] bcast_S1000000_S1000000x1_0 dst)
      (Host.gather gather_S100000x128_S1000000x1_S1000000x128_1_0_n_n_0_1_1128 X
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 100000#32))) src))))
    (broadcastInDim S100000x128 ![0, 1] bcast_S100000x1_S100000x128_0_1 cnt)

/-! ## What the first region finds -/

variable (m : (ℓ : Loc nD τ sig) → Buf (Elt Ideal) ℓ) (ρ : Dev nD → PrngReg)

theorem entry0_src (c : Dev nD) : W1 m ρ c (Proc.devRef .tc main_v1) = srcOf (m ((c : Thread nD τ).loc main_arg1)) := by
  show StableHlo.after hostOps0 (W0 m ρ c) (Proc.devRef .tc main_v1) = _
  dsimp only [hostOps0]
  after_results_simp
  rfl

theorem entry0_dst (c : Dev nD) : W1 m ρ c (Proc.devRef .tc main_v3) = dstOf (m ((c : Thread nD τ).loc main_arg1)) := by
  show StableHlo.after hostOps0 (W0 m ρ c) (Proc.devRef .tc main_v3) = _
  dsimp only [hostOps0]
  after_results_simp
  rfl

theorem entry0_cnt (c : Dev nD) : W1 m ρ c (Proc.devRef .tc main_v10) = cntOf (dstOf (m ((c : Thread nD τ).loc main_arg1))) := by
  show StableHlo.after hostOps0 (W0 m ρ c) (Proc.devRef .tc main_v10) = _
  dsimp only [hostOps0]
  after_results_simp
  rfl

theorem entry0_mean (c : Dev nD) :
    W1 m ρ c (Proc.devRef .tc main_v22)
      = meanWith (srcOf (m ((c : Thread nD τ).loc main_arg1))) (dstOf (m ((c : Thread nD τ).loc main_arg1)))
          (cntOf (dstOf (m ((c : Thread nD τ).loc main_arg1)))) (m ((c : Thread nD τ).loc main_arg0)) := by
  show StableHlo.after hostOps0 (W0 m ρ c) (Proc.devRef .tc main_v22) = _
  dsimp only [hostOps0]
  after_results_simp
  rfl

theorem entry0_bias (c : Dev nD) :
    W1 m ρ c (Proc.devRef .tc main_v23) = shapeCast S1x128 (m ((c : Thread nD τ).loc main_arg3)) shapeCasts_S128_S1x128 := by
  show StableHlo.after hostOps0 (W0 m ρ c) (Proc.devRef .tc main_v23) = _
  dsimp only [hostOps0]
  after_results_simp
  rfl

/-- An argument array is as launched after the first stretch of host operations. -/
theorem entry0_arg0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results_simp
theorem entry0_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results_simp
theorem entry0_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results_simp
theorem entry0_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results_simp
theorem entry0_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results_simp
theorem entry0_arg7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results_simp
theorem entry0_arg8 (c : Dev nD) : W1 m ρ c (Proc.devRef .tc main_arg8) = m ((c : Thread nD τ).loc main_arg8) := by
  show StableHlo.after hostOps0 (W0 m ρ c) (Proc.devRef .tc main_arg8) = _
  dsimp only [hostOps0]
  after_results_simp
theorem entry0_arg9 (c : Dev nD) : W1 m ρ c (Proc.devRef .tc main_arg9) = m ((c : Thread nD τ).loc main_arg9) := by
  show StableHlo.after hostOps0 (W0 m ρ c) (Proc.devRef .tc main_arg9) = _
  dsimp only [hostOps0]
  after_results_simp

/-! ## What the second region finds, over the contents the first region leaves -/

theorem entry1_mean (c : Dev nD) :
    W3 m ρ c (Proc.devRef .tc main_v36)
      = meanWith (W2 m ρ c (Proc.devRef .tc main_v1)) (W2 m ρ c (Proc.devRef .tc main_v3))
          (W2 m ρ c (Proc.devRef .tc main_v10)) (W2 m ρ c (Proc.devRef .tc main_v24)) := by
  show StableHlo.after hostOps1 (W2 m ρ c) (Proc.devRef .tc main_v36) = _
  dsimp only [hostOps1]
  after_results_simp
  rfl

theorem entry1_hidden (c : Dev nD) : W3 m ρ c (Proc.devRef .tc main_v24) = W2 m ρ c (Proc.devRef .tc main_v24) := by
  show StableHlo.after hostOps1 (W2 m ρ c) (Proc.devRef .tc main_v24) = _
  dsimp only [hostOps1]
  after_results_simp

theorem entry1_bias (c : Dev nD) :
    W3 m ρ c (Proc.devRef .tc main_v37) = shapeCast S1x128 (W2 m ρ c (Proc.devRef .tc main_arg6)) shapeCasts_S128_S1x128 := by
  show StableHlo.after hostOps1 (W2 m ρ c) (Proc.devRef .tc main_v37) = _
  dsimp only [hostOps1]
  after_results_simp
  rfl

theorem entry1_cls_bias (c : Dev nD) :
    W3 m ρ c (Proc.devRef .tc main_v38) = shapeCast S1x3 (W2 m ρ c (Proc.devRef .tc main_arg9)) shapeCasts_S3_S1x3 := by
  show StableHlo.after hostOps1 (W2 m ρ c) (Proc.devRef .tc main_v38) = _
  dsimp only [hostOps1]
  after_results_simp
  rfl

theorem entry1_arg5 (c : Dev nD) : W3 m ρ c (Proc.devRef .tc main_arg5) = W2 m ρ c (Proc.devRef .tc main_arg5) := by
  show StableHlo.after hostOps1 (W2 m ρ c) (Proc.devRef .tc main_arg5) = _
  dsimp only [hostOps1]
  after_results_simp
theorem entry1_arg7 (c : Dev nD) : W3 m ρ c (Proc.devRef .tc main_arg7) = W2 m ρ c (Proc.devRef .tc main_arg7) := by
  show StableHlo.after hostOps1 (W2 m ρ c) (Proc.devRef .tc main_arg7) = _
  dsimp only [hostOps1]
  after_results_simp
theorem entry1_arg8 (c : Dev nD) : W3 m ρ c (Proc.devRef .tc main_arg8) = W2 m ρ c (Proc.devRef .tc main_arg8) := by
  show StableHlo.after hostOps1 (W2 m ρ c) (Proc.devRef .tc main_arg8) = _
  dsimp only [hostOps1]
  after_results_simp

end Cert.KernelIdeal.Glue

end
-- ==== Proof.KernelValue.lean ====
/-
  The kernel program's result, as one function of its ten arguments.

  Following the buffer contents through the run: the first region is entered with the mean of in-neighbours of the
  features and leaves the first layer's output `H`; the host operations between the regions form the mean of
  in-neighbours of `H` from the same two edge columns and the same clamped counts; the second region is entered with that
  mean and `H` and leaves the logits.  So the result array is `sageLogits` of the mean of `H`, `H`, and the second layer's and
  the classifier's parameters, where `H` is `sageLayer` of the mean of the features, the features and the first layer's
  parameters.
-/
import proofs.«108070_j30081950941187_2_alg».proof.Proof.Region0
import proofs.«108070_j30081950941187_2_alg».proof.Proof.Region1
import proofs.«108070_j30081950941187_2_alg».proof.Proof.Glue

set_option maxRecDepth 16384

noncomputable section

open scoped BigOperators

namespace Cert.KernelIdeal.Whole

open Cert.KernelIdeal Cert.KernelIdeal.Gen Cert.KernelIdeal.Glue Cert.Sage
open Idealize.ShloMosaic Idealize.ShloMosaic.TcCoe Idealize.ShloMosaic.ValueIdx
open Idealize.SL Idealize.SL.Sem
open Idealize.ShloMosaic.Pipeline (Dat Cfg Window)

/-- The first layer's output, from the features, the edge list and the first layer's parameters (the bias as the
    kernel's [1,128] row). -/
def hiddenOf (x : (⟨S100000x128, .f32⟩ : BufTy).Contents (Elt Ideal)) (ei : (⟨S2x1000000, .i32⟩ : BufTy).Contents (Elt Ideal))
    (wl : (⟨S128x128, .f32⟩ : BufTy).Contents (Elt Ideal)) (b : (⟨S128, .f32⟩ : BufTy).Contents (Elt Ideal))
    (wr : (⟨S128x128, .f32⟩ : BufTy).Contents (Elt Ideal)) : (⟨S100000x128, .f32⟩ : BufTy).Contents (Elt Ideal) :=
  sageLayer (meanWith (srcOf ei) (dstOf ei) (cntOf (dstOf ei)) x) x wl wr
    (fun k => shapeCast S1x128 b shapeCasts_S128_S1x128 (ix2 (0 : Fin 1) k))

/-- The kernel program's result as a function of its arguments. -/
def kernelValue (x : (⟨S100000x128, .f32⟩ : BufTy).Contents (Elt Ideal)) (ei : (⟨S2x1000000, .i32⟩ : BufTy).Contents (Elt Ideal))
    (wl1 : (⟨S128x128, .f32⟩ : BufTy).Contents (Elt Ideal)) (b1 : (⟨S128, .f32⟩ : BufTy).Contents (Elt Ideal))
    (wr1 wl2 : (⟨S128x128, .f32⟩ : BufTy).Contents (Elt Ideal)) (b2 : (⟨S128, .f32⟩ : BufTy).Contents (Elt Ideal))
    (wr2 : (⟨S128x128, .f32⟩ : BufTy).Contents (Elt Ideal)) (wc : (⟨S128x3, .f32⟩ : BufTy).Contents (Elt Ideal))
    (bc : (⟨S3, .f32⟩ : BufTy).Contents (Elt Ideal)) : (⟨S100000x3, .f32⟩ : BufTy).Contents (Elt Ideal) :=
  sageLogits (meanWith (srcOf ei) (dstOf ei) (cntOf (dstOf ei)) (hiddenOf x ei wl1 b1 wr1)) (hiddenOf x ei wl1 b1 wr1) wl2 wr2
    (fun k => shapeCast S1x128 b2 shapeCasts_S128_S1x128 (ix2 (0 : Fin 1) k)) wc
    (fun k => shapeCast S1x3 bc shapeCasts_S3_S1x3 (ix2 (0 : Fin 1) k))

variable (m : (ℓ : Loc nD τ sig) → Buf (Elt Ideal) ℓ) (ρ : Dev nD → PrngReg)

/-- What the first region leaves in its output array. -/
theorem hidden_after (c : Dev nD) :
    W2 m ρ c (Proc.devRef .tc main_v24)
      = hiddenOf (m ((c : Thread nD τ).loc main_arg0)) (m ((c : Thread nD τ).loc main_arg1)) (m ((c : Thread nD τ).loc main_arg2))
          (m ((c : Thread nD τ).loc main_arg3)) (m ((c : Thread nD τ).loc main_arg4)) := by
  refine (W2_arr m ρ c 5).trans ((Region0.array_after (V1 m ρ) c).trans ?_)
  show sageLayer (W1 m ρ c (Proc.devRef .tc main_v22)) (W1 m ρ c (Proc.devRef .tc main_arg0)) (W1 m ρ c (Proc.devRef .tc main_arg2))
      (W1 m ρ c (Proc.devRef .tc main_arg4)) (fun k => W1 m ρ c (Proc.devRef .tc main_v23) (ix2 (0 : Fin 1) k)) = _
  rw [entry0_mean, entry0_arg0, entry0_arg2, entry0_arg4, entry0_bias]
  rfl

/-- THE RESULT ARRAY after the run is `kernelValue` of the launch contents of the arguments. -/
theorem result_value (c : Dev nD) :
    W4 m ρ c (Proc.devRef .tc main_v39)
      = kernelValue (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine (W4_arr m ρ c 7).trans ((Region1.array_after (V3 m ρ) c).trans ?_)
  show sageLogits (W3 m ρ c (Proc.devRef .tc main_v36)) (W3 m ρ c (Proc.devRef .tc main_v24)) (W3 m ρ c (Proc.devRef .tc main_arg5))
      (W3 m ρ c (Proc.devRef .tc main_arg7)) (fun k => W3 m ρ c (Proc.devRef .tc main_v37) (ix2 (0 : Fin 1) k))
      (W3 m ρ c (Proc.devRef .tc main_arg8)) (fun k => W3 m ρ c (Proc.devRef .tc main_v38) (ix2 (0 : Fin 1) k)) = _
  rw [entry1_mean, entry1_hidden, entry1_arg5, entry1_arg7, entry1_arg8, entry1_bias, entry1_cls_bias]
  rw [hidden_after, W2_of_ne m ρ c main_v1 (by decide), W2_of_ne m ρ c main_v3 (by decide), W2_of_ne m ρ c main_v10 (by decide),
    W2_of_ne m ρ c main_arg5 (by decide), W2_of_ne m ρ c main_arg6 (by decide), W2_of_ne m ρ c main_arg7 (by decide),
    W2_of_ne m ρ c main_arg8 (by decide), W2_of_ne m ρ c main_arg9 (by decide)]
  rw [entry0_src, entry0_dst, entry0_cnt, entry0_arg5, entry0_arg6, entry0_arg7, entry0_arg8, entry0_arg9]
  rfl

end Cert.KernelIdeal.Whole

end
-- ==== Proof.RefBridge.lean ====
/-
  The reference program's stages, read as the per-node functions.

  The reference forms the mean of in-neighbours twice with the same host operations; both occurrences are ONE function
  `refMean` of the feature array and the edge list.  Its first rectified layer is `sageLayer` of that mean, the features,
  the two weight matrices and the bias vector; its second is `sageLayer` of the mean of the first layer's output and that
  output; its result is the classifier on the second layer's rows, `sageLogits`.  The reference adds the bias before the
  node's own term, the per-node function after it: the two agree because addition of extended reals is commutative and
  associative (`sageRow_bias_first`).
-/
import proofs.«108070_j30081950941187_2_alg».proof.Proof.Gen.ReferenceIdeal.Read
import proofs.«108070_j30081950941187_2_alg».proof.Proof.Node

set_option maxRecDepth 16384

noncomputable section

open scoped BigOperators

namespace Cert.ReferenceIdeal.Bridge

open Cert.ReferenceIdeal Cert.ReferenceIdeal.Gen Cert.ReferenceIdeal.Read Cert.Sage
open Idealize.ShloMosaic Idealize.ShloMosaic.TcCoe Idealize.ShloMosaic.ValueIdx

/-- The reference's mean of in-neighbours of a feature array `X`. -/
def refMean (X : (⟨S100000x128, .f32⟩ : BufTy).Contents (Elt Ideal)) (x1 : (⟨S2x1000000, .i32⟩ : BufTy).Contents (Elt Ideal)) :
    (⟨S100000x128, .f32⟩ : BufTy).Contents (Elt Ideal) :=
  Host.divf (F := Ideal) (φ := .f32)
    (Host.scatterAdd (F := Ideal) (φ := .f32) scatter_S100000x128_S1000000x1_S1000000x128_1_0_0_1 (val_main_v11 (F := Ideal)) (val_main_v12 (F := Ideal) x1)
      (Host.gather gather_S100000x128_S1000000x1_S1000000x128_1_0_n_n_0_1_1128 X (val_main_v9 (F := Ideal) x1)))
    (val_main_v21 (F := Ideal) x1)

/-- The first layer's mean stage is `refMean` of the features. -/
theorem mean1_eq (x0 : (⟨S100000x128, .f32⟩ : BufTy).Contents (Elt Ideal)) (x1 : (⟨S2x1000000, .i32⟩ : BufTy).Contents (Elt Ideal)) :
    val_main_v22 (F := Ideal) x0 x1 = refMean x0 x1 := rfl

/-- The second layer's mean stage is `refMean` of the first layer's output: the second occurrence of the host
    operations is the first's, operation for operation. -/
theorem mean2_eq (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v48 (F := Ideal) x0 x1 x2 x3 x4 = refMean (val_main_v29 (F := Ideal) x0 x1 x2 x3 x4) x1 := rfl

/-! ## Index equations: the stages' composed index functions are the coordinate constructors -/

theorem lidx23 (r : Fin 100000) (q k : Fin 128) : lidx_main_v23 (ix2 r q) k = ix2 r k :=
  funext fun a => Fin.ext (by match a with | ⟨0, _⟩ => rfl | ⟨1, _⟩ => rfl)
theorem ridx23 (r : Fin 100000) (q k : Fin 128) : ridx_main_v23 (ix2 r q) k = ix2 k q :=
  funext fun a => Fin.ext (by match a with | ⟨0, _⟩ => rfl | ⟨1, _⟩ => rfl)
theorem lidx27 (r : Fin 100000) (q k : Fin 128) : lidx_main_v27 (ix2 r q) k = ix2 r k :=
  funext fun a => Fin.ext (by match a with | ⟨0, _⟩ => rfl | ⟨1, _⟩ => rfl)
theorem ridx27 (r : Fin 100000) (q k : Fin 128) : ridx_main_v27 (ix2 r q) k = ix2 k q :=
  funext fun a => Fin.ext (by match a with | ⟨0, _⟩ => rfl | ⟨1, _⟩ => rfl)
theorem bias25 (r : Fin 100000) (q : Fin 128) : idx_main_v24 (idx_main_v25 (ix2 r q)) = ix1 q :=
  funext fun a => Fin.ext (by match a with | ⟨0, _⟩ => rfl)
theorem lidx49 (r : Fin 100000) (q k : Fin 128) : lidx_main_v49 (ix2 r q) k = ix2 r k :=
  funext fun a => Fin.ext (by match a with | ⟨0, _⟩ => rfl | ⟨1, _⟩ => rfl)
theorem ridx49 (r : Fin 100000) (q k : Fin 128) : ridx_main_v49 (ix2 r q) k = ix2 k q :=
  funext fun a => Fin.ext (by match a with | ⟨0, _⟩ => rfl | ⟨1, _⟩ => rfl)
theorem lidx53 (r : Fin 100000) (q k : Fin 128) : lidx_main_v53 (ix2 r q) k = ix2 r k :=
  funext fun a => Fin.ext (by match a with | ⟨0, _⟩ => rfl | ⟨1, _⟩ => rfl)
theorem ridx53 (r : Fin 100000) (q k : Fin 128) : ridx_main_v53 (ix2 r q) k = ix2 k q :=
  funext fun a => Fin.ext (by match a with | ⟨0, _⟩ => rfl | ⟨1, _⟩ => rfl)
theorem bias51 (r : Fin 100000) (q : Fin 128) : idx_main_v50 (idx_main_v51 (ix2 r q)) = ix1 q :=
  funext fun a => Fin.ext (by match a with | ⟨0, _⟩ => rfl)
theorem lidx56 (r : Fin 100000) (q : Fin 3) (k : Fin 128) : lidx_main_v56 (ix2 r q) k = ix2 r k :=
  funext fun a => Fin.ext (by match a with | ⟨0, _⟩ => rfl | ⟨1, _⟩ => rfl)
theorem ridx56 (r : Fin 100000) (q : Fin 3) (k : Fin 128) : ridx_main_v56 (ix2 r q) k = ix2 k q :=
  funext fun a => Fin.ext (by match a with | ⟨0, _⟩ => rfl | ⟨1, _⟩ => rfl)
theorem bias58 (r : Fin 100000) (q : Fin 3) : idx_main_v57 (idx_main_v58 (ix2 r q)) = ix1 q :=
  funext fun a => Fin.ext (by match a with | ⟨0, _⟩ => rfl)

/-! ## The layers -/

/-- The reference's first rectified layer is the per-node layer function of its mean stage and the features. -/
theorem hidden1_eq (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v29 (F := Ideal) x0 x1 x2 x3 x4
      = sageLayer (val_main_v22 (F := Ideal) x0 x1) x0 x2 x4 (fun k => x3 (ix1 k)) := by
  funext i
  obtain ⟨r, q, rfl⟩ : ∃ (r : Fin 100000) (q : Fin 128), i = ix2 r q := ⟨i 0, i 1, eq_ix2 i⟩
  rw [sageLayer_ix2, ← sageRow_bias_first]
  rw [val_main_v29_apply, val_main_v28_apply, val_main_v26_apply, val_main_v23_apply, val_main_v27_apply, val_main_v25_apply,
    val_main_v24_apply, val_main_call0_v0_apply, val_main_call0_cst_apply]
  simp only [lidx23, ridx23, lidx27, ridx27, bias25]
  rfl

/-- The reference's second rectified layer is the per-node layer function of its second mean stage and the first
    layer's output. -/
theorem hidden2_eq (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v55 (F := Ideal) x0 x1 x2 x3 x4 x5 x6 x7
      = sageLayer (val_main_v48 (F := Ideal) x0 x1 x2 x3 x4) (val_main_v29 (F := Ideal) x0 x1 x2 x3 x4) x5 x7 (fun k => x6 (ix1 k)) := by
  funext i
  obtain ⟨r, q, rfl⟩ : ∃ (r : Fin 100000) (q : Fin 128), i = ix2 r q := ⟨i 0, i 1, eq_ix2 i⟩
  rw [sageLayer_ix2, ← sageRow_bias_first]
  rw [val_main_v55_apply, val_main_v54_apply, val_main_v52_apply, val_main_v49_apply, val_main_v53_apply, val_main_v51_apply,
    val_main_v50_apply, val_main_call1_v0_apply, val_main_call1_cst_apply]
  simp only [lidx49, ridx49, lidx53, ridx53, bias51]
  rfl

/-- The reference's result is the classifier on the second layer's rows. -/
theorem logits_eq (x0 : (⟨S100000x128, .f32⟩ : BufTy).Contents (Elt Ideal)) (x1 : (⟨S2x1000000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128x3, .f32⟩ : BufTy).Contents (Elt Ideal))
    (x9 : (⟨S3, .f32⟩ : BufTy).Contents (Elt Ideal)) :
    val_main_v59 (F := Ideal) x0 x1 x2 x3 x4 x5 x6 x7 x8 x9
      = sageLogits (val_main_v48 (F := Ideal) x0 x1 x2 x3 x4) (val_main_v29 (F := Ideal) x0 x1 x2 x3 x4) x5 x7 (fun k => x6 (ix1 k))
          x8 (fun k => x9 (ix1 k)) := by
  funext i
  obtain ⟨r, q, rfl⟩ : ∃ (r : Fin 100000) (q : Fin 3), i = ix2 r q := ⟨i 0, i 1, eq_ix2 i⟩
  rw [sageLogits_eq_cls_layer, ← hidden2_eq]
  rw [val_main_v59_apply, val_main_v56_apply, val_main_v58_apply, val_main_v57_apply]
  simp only [lidx56, ridx56, bias58]
  rfl

end Cert.ReferenceIdeal.Bridge

end
-- ==== Proof.Join.lean ====
/-
  The kernel's result function is the reference's result stage.

  Three small facts join the two spellings of the host side.  The clamped counts reach the division as a [100000,1]
  column: the kernel RESHAPES the count vector to that column, the reference BROADCASTS it along axis 0; at entry (r, 0)
  both read entry r of the vector.  A bias reaches a layer as a row: the kernel reshapes the [n] vector to [1,n] and its
  grid points read entry (0,k); the reference reads entry k of the vector.  Everything else in the mean of in-neighbours
  is the same operation on the same operands in both programs, so the kernel's mean IS the reference's.  With the layers
  already read as `sageLayer` / `sageLogits` on both sides, the two results are one function of the arguments.
-/
import proofs.«108070_j30081950941187_2_alg».proof.Proof.KernelValue
import proofs.«108070_j30081950941187_2_alg».proof.Proof.RefBridge

set_option maxRecDepth 16384

noncomputable section

open scoped BigOperators

namespace Cert.Join

open Cert.Sage
open Idealize.ShloMosaic Idealize.ShloMosaic.TcCoe Idealize.ShloMosaic.ValueIdx

/-- A vector of 100000 entries reshaped to a column is the vector broadcast along axis 0 into the column. -/
theorem column_eq {α : Type} (v : (⟨1, ![100000]⟩ : Shape).Idx → α)
    (h : (⟨1, ![100000]⟩ : Shape).ShapeCasts ⟨2, ![100000, 1]⟩)
    (h' : (⟨1, ![100000]⟩ : Shape).BroadcastsInDim ⟨2, ![100000, 1]⟩ (![0] : Fin 1 → Fin 2)) :
    shapeCast ⟨2, ![100000, 1]⟩ v h = broadcastInDim ⟨2, ![100000, 1]⟩ (![0] : Fin 1 → Fin 2) h' v := by
  funext j
  have h1 : (j 1).val < 1 := (j 1).isLt
  rw [broadcastInDim_apply (![0] : Fin 1 → Fin 2) h' v j (ix1 (j 0)) (fun a => by
    match a with
    | ⟨0, _⟩ => show (j 0).val = if (100000 : Nat) = 1 then 0 else (j 0).val; rw [if_neg (by decide)])]
  exact shapeCast_apply v h j (ix1 (j 0)) (by
    rw [Shape.rowMajor_val_one, Shape.rowMajor_val_two]
    show (j 0).val = (j 0).val * 1 + (j 1).val
    omega)

/-- A vector of n entries reshaped to a [1,n] row reads, at (0,k), its entry k. -/
theorem row_apply {α : Type} {n : Nat} (v : (⟨1, ![n]⟩ : Shape).Idx → α) (h : (⟨1, ![n]⟩ : Shape).ShapeCasts ⟨2, ![1, n]⟩) (k : Fin n) :
    shapeCast ⟨2, ![1, n]⟩ v h (ix2 (0 : Fin 1) k) = v (ix1 k) :=
  shapeCast_apply v h (ix2 (0 : Fin 1) k) (ix1 k) (by
    rw [Shape.rowMajor_val_one, Shape.rowMajor_val_two]
    show k.val = 0 * n + k.val
    omega)

/-- The kernel's mean of in-neighbours is the reference's, for every feature array and edge list. -/
theorem mean_eq (X : (⟨Cert.KernelIdeal.S100000x128, .f32⟩ : BufTy).Contents (Elt Ideal))
    (ei : (⟨Cert.KernelIdeal.S2x1000000, .i32⟩ : BufTy).Contents (Elt Ideal)) :
    Cert.KernelIdeal.Glue.meanWith (Cert.KernelIdeal.Glue.srcOf ei) (Cert.KernelIdeal.Glue.dstOf ei)
        (Cert.KernelIdeal.Glue.cntOf (Cert.KernelIdeal.Glue.dstOf ei)) X
      = Cert.ReferenceIdeal.Bridge.refMean X ei := by
  unfold Cert.KernelIdeal.Glue.meanWith Cert.KernelIdeal.Glue.cntOf
  rw [column_eq _ _ Cert.ReferenceIdeal.Gen.bcast_S100000_S100000x1_0]
  rfl

/-- THE TWO RESULTS ARE ONE FUNCTION of the ten arguments. -/
theorem value_eq (x : (⟨Cert.KernelIdeal.S100000x128, .f32⟩ : BufTy).Contents (Elt Ideal))
    (ei : (⟨Cert.KernelIdeal.S2x1000000, .i32⟩ : BufTy).Contents (Elt Ideal))
    (wl1 : (⟨Cert.KernelIdeal.S128x128, .f32⟩ : BufTy).Contents (Elt Ideal)) (b1 : (⟨Cert.KernelIdeal.S128, .f32⟩ : BufTy).Contents (Elt Ideal))
    (wr1 wl2 : (⟨Cert.KernelIdeal.S128x128, .f32⟩ : BufTy).Contents (Elt Ideal)) (b2 : (⟨Cert.KernelIdeal.S128, .f32⟩ : BufTy).Contents (Elt Ideal))
    (wr2 : (⟨Cert.KernelIdeal.S128x128, .f32⟩ : BufTy).Contents (Elt Ideal)) (wc : (⟨Cert.KernelIdeal.S128x3, .f32⟩ : BufTy).Contents (Elt Ideal))
    (bc : (⟨Cert.KernelIdeal.S3, .f32⟩ : BufTy).Contents (Elt Ideal)) :
    Cert.KernelIdeal.Whole.kernelValue x ei wl1 b1 wr1 wl2 b2 wr2 wc bc
      = Cert.ReferenceIdeal.Read.val_main_v59 (F := Ideal) x ei wl1 b1 wr1 wl2 b2 wr2 wc bc := by
  rw [Cert.ReferenceIdeal.Bridge.logits_eq, Cert.ReferenceIdeal.Bridge.mean2_eq, Cert.ReferenceIdeal.Bridge.hidden1_eq,
    Cert.ReferenceIdeal.Bridge.mean1_eq]
  unfold Cert.KernelIdeal.Whole.kernelValue Cert.KernelIdeal.Whole.hiddenOf
  simp only [mean_eq, row_apply]

end Cert.Join

end
-- ==== Proof.lean ====
/-
  A two-layer mean-aggregating graph network with a linear classifier, on 100000 nodes with 128 features and a list of
  1000000 edges: the kernel program (two grid regions over blocks of 5000 nodes, the neighbour aggregation done by host
  operations around them) against the plain reference, on the extended reals.

  For a feature array `X` let mean(X) be the mean of in-neighbours: gather the source rows of `X`, add them up at the
  destination rows, divide each row by the node's in-degree clamped below at one.  Both programs compute

      H      = max( mean(x)·Wl₁ + x·Wr₁ + b₁ , 0 )
      logits = max( mean(H)·Wl₂ + H·Wr₂ + b₂ , 0 ) · Wc + bc

  row by row.  The kernel adds the bias after the two products, the reference between them; the kernel passes the
  matrix operands through a narrower float format, which is the identity on the extended reals; the kernel's products
  are accumulated from zero inside a grid point, the reference's are whole-array contractions: the same sums over the
  128 channels.  A node's row of either layer depends only on the node's own rows of its inputs, so the 20 blocks a
  region writes back are the blocks of one whole-array function and cover the array (Region0, Region1); the host
  operations between the regions are applied to the first region's output (Glue, KernelValue); the reference's stages
  are the same per-node functions (RefBridge), and the two host spellings of the count column and of the bias rows read
  the same entries (Join).  Only commutativity and associativity of addition are used, so the finiteness of the inputs
  is never needed for the value; it is not needed for the frames either.

  The three frames: each program terminates without a fault and leaves its arguments unchanged — the two kernel
  programs by their frame certificates, the reference by its run.  The idealization rewrote no operation, so
  `preserves` has nothing to state.
-/
import proofs.«108070_j30081950941187_2_alg».proof.Defs
import proofs.«108070_j30081950941187_2_alg».proof.Proof.Gen.Kernel
import proofs.«108070_j30081950941187_2_alg».proof.Proof.Gen.Kernel.Skeleton
import proofs.«108070_j30081950941187_2_alg».proof.Proof.Gen.Kernel.Launch
import proofs.«108070_j30081950941187_2_alg».proof.Proof.Gen.Kernel.Points
import proofs.«108070_j30081950941187_2_alg».proof.Proof.Gen.Kernel.Frame
import proofs.«108070_j30081950941187_2_alg».proof.Proof.Gen.KernelIdeal
import proofs.«108070_j30081950941187_2_alg».proof.Proof.Gen.KernelIdeal.Skeleton
import proofs.«108070_j30081950941187_2_alg».proof.Proof.Gen.KernelIdeal.Launch
import proofs.«108070_j30081950941187_2_alg».proof.Proof.Gen.KernelIdeal.Points
import proofs.«108070_j30081950941187_2_alg».proof.Proof.Gen.KernelIdeal.Frame
import proofs.«108070_j30081950941187_2_alg».proof.Proof.Gen.ReferenceIdeal
import proofs.«108070_j30081950941187_2_alg».proof.Proof.Gen.Pre_finite_inputs
import proofs.«108070_j30081950941187_2_alg».proof.Proof.Gen.ReferenceIdeal.Run
import proofs.«108070_j30081950941187_2_alg».proof.Proof.Gen.ReferenceIdeal.Read
import proofs.«108070_j30081950941187_2_alg».proof.Proof.KernelRun
import proofs.«108070_j30081950941187_2_alg».proof.Proof.Join
import Idealize.ShloMosaic.Adequacy
import Idealize.ShloMosaic.Init

noncomputable section

namespace Cert.Proof

open Idealize.ShloMosaic Idealize.SL.Sem

/-- The word-level kernel program terminates without a fault and leaves its arguments unchanged. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs run, and both results are the kernel's result function of
    the arguments: the kernel's by following its buffers through the two regions, the reference's because its last
    stage is that function. -/
theorem algebraic : Cert.algebraic_KernelIdeal_ReferenceIdeal := by
  intro m ρ m' ρ' _ hagree
  refine ⟨fun c => Cert.KernelIdeal.Whole.kernelValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Whole.result_value m ρ c), (h c).2⟩)
      (Cert.KernelIdeal.Result.run_result m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9⟩ := hagree c
    rw [(h c).1, Cert.ReferenceIdeal.Read.val_main_v59_eq, a0, a1, a2, a3, a4, a5, a6, a7, a8, a9]
    exact (Cert.Join.value_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
